-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel

variable [Facts]

def fn {F : FTy → Type} [FloatOps F] (main_arg0 : FVec F S128x64 .f32) (main_arg1 : FVec F S128x64 .f32) : IVec S_ 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Kernel.lean ====
abbrev S128x64 : Shape := ⟨2, ![128, 64]⟩
abbrev S64x64 : Shape := ⟨2, ![64, 64]⟩
abbrev S1x1 : Shape := ⟨2, ![1, 1]⟩
abbrev S128x128 : Shape := ⟨2, ![128, 128]⟩
abbrev S1x128x64 : Shape := ⟨3, ![1, 128, 64]⟩
abbrev S128x1x64 : Shape := ⟨3, ![128, 1, 64]⟩
abbrev S128x128x64 : Shape := ⟨3, ![128, 128, 64]⟩
abbrev S1x64x64 : Shape := ⟨3, ![1, 64, 64]⟩
abbrev S64x1x64 : Shape := ⟨3, ![64, 1, 64]⟩
abbrev S64x64x64 : Shape := ⟨3, ![64, 64, 64]⟩
abbrev S64 : Shape := ⟨1, ![64]⟩
abbrev S64x1 : Shape := ⟨2, ![64, 1]⟩
abbrev S1 : Shape := ⟨1, ![1]⟩
abbrev S16x128 : Shape := ⟨2, ![16, 128]⟩
abbrev S16x64 : Shape := ⟨2, ![16, 64]⟩
abbrev S16x128x1x1 : Shape := ⟨4, ![16, 128, 1, 1]⟩
abbrev S1x1x16x64 : Shape := ⟨4, ![1, 1, 16, 64]⟩
abbrev S16x128x16x64 : Shape := ⟨4, ![16, 128, 16, 64]⟩
abbrev S16x128x16 : Shape := ⟨3, ![16, 128, 16]⟩
abbrev S16 : Shape := ⟨1, ![16]⟩
abbrev S16x1 : Shape := ⟨2, ![16, 1]⟩

abbrev nBuf : Space → Nat
  | .hbm => 5
  | .vmem => 8
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S64x64, .f32⟩
  | .hbm, ⟨3, _⟩ => ⟨S1x1, .f32⟩
  | .hbm, ⟨4, _⟩ => ⟨S1, .f32⟩
  | .local _ .vmem, ⟨0, _⟩ => ⟨S128x64, .f32⟩
  | .local _ .vmem, ⟨1, _⟩ => ⟨S64x64, .f32⟩
  | .local _ .vmem, ⟨2, _⟩ => ⟨S1x1, .f32⟩
  | .local _ .vmem, ⟨3, _⟩ => ⟨S128x128, .f32⟩
  | .local _ .vmem, ⟨4, _⟩ => ⟨S64x64, .f32⟩
  | .local _ .vmem, ⟨5, _⟩ => ⟨S64x64, .f32⟩
  | .local _ .vmem, ⟨6, _⟩ => ⟨S1x1, .f32⟩
  | .local _ .vmem, ⟨7, _⟩ => ⟨S1x1, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c16_i32 : BitVec 32 := 16#32
  let v3 : BitVec 32 := Scalar.muli arg0 c16_i32
  v3
def k0_off1 (i : grid0.Coords) : Fin 2 → Nat :=
  let arg0 : BitVec 32 := BitVec.ofNat 32 (i 0).val
  let c16_i32 : BitVec 32 := 16#32
  let v3 : BitVec 32 := Scalar.muli arg0 c16_i32
  let v4 : BitVec 32 := v3
  let v5 : Index := Scalar.indexCast v4
  let c0 : Index := 0#32
  ![v5.toNat, 0]
def k0_mult2 : BitVec 32 :=
  let c0_i32_1 : BitVec 32 := 0#32
  let c16_i32_2 : BitVec 32 := 16#32
  let v8 : BitVec 32 := Scalar.muli c0_i32_1 c16_i32_2
  v8
def k0_off2 (c0_i32_1 : BitVec 32) : Fin 2 → Nat :=
  let c16_i32_2 : BitVec 32 := 16#32
  let v8 : BitVec 32 := Scalar.muli c0_i32_1 c16_i32_2
  let v9 : BitVec 32 := v8
  let v10 : Index := Scalar.indexCast v9
  let c0_3 : Index := 0#32
  ![v10.toNat, 0]
def k0_mult3 : BitVec 32 :=
  let c1_i32 : BitVec 32 := 1#32
  let c16_i32_12 : BitVec 32 := 16#32
  let v45 : BitVec 32 := Scalar.muli c1_i32 c16_i32_12
  v45
def k0_mult4 : BitVec 32 :=
  let c2_i32 : BitVec 32 := 2#32
  let c16_i32_22 : BitVec 32 := 16#32
  let v82 : BitVec 32 := Scalar.muli c2_i32 c16_i32_22
  v82
def k0_mult5 : BitVec 32 :=
  let c3_i32 : BitVec 32 := 3#32
  let c16_i32_32 : BitVec 32 := 16#32
  let v119 : BitVec 32 := Scalar.muli c3_i32 c16_i32_32
  v119
def k0_cond2 (i : grid0.Coords) : BitVec 1 :=
  let arg0 : BitVec 32 := BitVec.ofNat 32 (i 0).val
  let c7_i32 : BitVec 32 := 7#32
  let v161 : BitVec 1 := Scalar.cmpi .eq arg0 c7_i32
  let v162 : BitVec 32 := Scalar.extui v161
  let c0_i32_46 : BitVec 32 := 0#32
  let v163 : BitVec 1 := Scalar.cmpi .ne v162 c0_i32_46
  v163

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S128x64_S64x64_0_0 : S128x64.Slices ![0, 0] S64x64
  inb_S128x64_S128x64_0_0 : ∀ a, (![0, 0] : Fin 2 → Nat) a + S128x64.size a ≤ S128x64.size a
  h_S128x64 : 0 < S128x64.numel
  shapeCasts_S128x64_S1x128x64 : S128x64.ShapeCasts S1x128x64
  shapeCasts_S128x64_S128x1x64 : S128x64.ShapeCasts S128x1x64
  broadcasts_S1x128x64_S128x128x64 : S1x128x64.Broadcasts S128x128x64
  broadcasts_S128x1x64_S128x128x64 : S128x1x64.Broadcasts S128x128x64
  reduces_S128x128x64_S128x128 : S128x128x64.Reduces [2] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x64_S1x64x64 : S64x64.ShapeCasts S1x64x64
  shapeCasts_S64x64_S64x1x64 : S64x64.ShapeCasts S64x1x64
  broadcasts_S1x64x64_S64x64x64 : S1x64x64.Broadcasts S64x64x64
  broadcasts_S64x1x64_S64x64x64 : S64x1x64.Broadcasts S64x64x64
  reduces_S64x64x64_S64x64 : S64x64x64.Reduces [2] S64x64
  iota_S64x64_d0_w32 : S64x64.Iotas .tc 32 [0]
  iota_S64x64_d1_w32 : S64x64.Iotas .tc 32 [1]
  natLt_1_32 : 1 < 32
  reduces_S64x64_S64 : S64x64.Reduces [1] S64
  shapeCasts_S64_S64x1 : S64.ShapeCasts S64x1
  reduces_S64x1_S1 : S64x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S16x128 : 0 < S16x128.numel
  h_S16x64 : 0 < S16x64.numel
  shapeCasts_S16x128_S16x128x1x1 : S16x128.ShapeCasts S16x128x1x1
  shapeCasts_S16x64_S1x1x16x64 : S16x64.ShapeCasts S1x1x16x64
  broadcasts_S16x128x1x1_S16x128x16x64 : S16x128x1x1.Broadcasts S16x128x16x64
  broadcasts_S1x1x16x64_S16x128x16x64 : S1x1x16x64.Broadcasts S16x128x16x64
  reduces_S16x128x16x64_S16x128x16 : S16x128x16x64.Reduces [3] S16x128x16
  reduces_S16x128x16_S16x128 : S16x128x16.Reduces [2] S16x128
  reduces_S16x128_S16 : S16x128.Reduces [1] S16
  shapeCasts_S16_S16x1 : S16.ShapeCasts S16x1
  reduces_S16x1_S1 : S16x1.Reduces [0] S1
  shapeCasts_S1x1_S1 : S1x1.ShapeCasts S1
  hrank0 : 0 < grid0.rank
  k0_mult1_dvd : ∀ i : grid0.Coords, 16 ∣ (k0_mult1 i).toNat
  k0_off1_inb : ∀ i : grid0.Coords, ∀ a, (k0_off1 i) a + S16x128.size a ≤ S128x128.size a
  k0_mult2_dvd : 16 ∣ k0_mult2.toNat
  k0_off2_inb : ∀ (r : Fin 4), ∀ a, (k0_off2 (BitVec.ofNat 32 r.val)) a + S16x64.size a ≤ S64x64.size a
  k0_mult3_dvd : 16 ∣ k0_mult3.toNat
  k0_mult4_dvd : 16 ∣ k0_mult4.toNat
  k0_mult5_dvd : 16 ∣ k0_mult5.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S128x64.size a
  hwx0_0 : ∀ i : grid0.Coords, EltTy.bits .f32 = 32 ∨ (Rect.block (s := S128x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S128x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x64 : Shape := ⟨2, ![128, 64]⟩
abbrev S1x128x64 : Shape := ⟨3, ![1, 128, 64]⟩
abbrev S128x1x64 : Shape := ⟨3, ![128, 1, 64]⟩
abbrev S128x128x64 : Shape := ⟨3, ![128, 128, 64]⟩
abbrev S_ : Shape := ⟨0, ![]⟩
abbrev S128x128 : Shape := ⟨2, ![128, 128]⟩
abbrev S64x64 : Shape := ⟨2, ![64, 64]⟩
abbrev S128x128x1x1 : Shape := ⟨4, ![128, 128, 1, 1]⟩
abbrev S1x1x64x64 : Shape := ⟨4, ![1, 1, 64, 64]⟩
abbrev S128x128x64x64 : Shape := ⟨4, ![128, 128, 64, 64]⟩
abbrev S1 : Shape := ⟨1, ![1]⟩

abbrev nBuf : Space → Nat
  | .hbm => 72
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S1x128x64, .f32⟩
  | .hbm, ⟨3, _⟩ => ⟨S128x1x64, .f32⟩
  | .hbm, ⟨4, _⟩ => ⟨S128x128x64, .f32⟩
  | .hbm, ⟨5, _⟩ => ⟨S128x128x64, .f32⟩
  | .hbm, ⟨6, _⟩ => ⟨S128x128x64, .f32⟩
  | .hbm, ⟨7, _⟩ => ⟨S_, .f32⟩
  | .hbm, ⟨8, _⟩ => ⟨S128x128x64, .f32⟩
  | .hbm, ⟨9, _⟩ => ⟨S128x128x64, .f32⟩
  | .hbm, ⟨10, _⟩ => ⟨S128x128x64, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S1x128x64, .f32⟩
  | .hbm, ⟨15, _⟩ => ⟨S128x1x64, .f32⟩
  | .hbm, ⟨16, _⟩ => ⟨S128x128x64, .f32⟩
  | .hbm, ⟨17, _⟩ => ⟨S128x128x64, .f32⟩
  | .hbm, ⟨18, _⟩ => ⟨S128x128x64, .f32⟩
  | .hbm, ⟨19, _⟩ => ⟨S_, .f32⟩
  | .hbm, ⟨20, _⟩ => ⟨S128x128x64, .f32⟩
  | .hbm, ⟨21, _⟩ => ⟨S128x128x64, .f32⟩
  | .hbm, ⟨22, _⟩ => ⟨S128x128x64, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S64x64, .f32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S64x64, .i1⟩
  | .hbm, ⟨34, _⟩ => ⟨S128x128x1x1, .f32⟩
  | .hbm, ⟨35, _⟩ => ⟨S1x1x64x64, .f32⟩
  | .hbm, ⟨36, _⟩ => ⟨S128x128x64x64, .f32⟩
  | .hbm, ⟨37, _⟩ => ⟨S128x128x64x64, .f32⟩
  | .hbm, ⟨38, _⟩ => ⟨S128x128x64x64, .f32⟩
  | .hbm, ⟨39, _⟩ => ⟨S_, .f32⟩
  | .hbm, ⟨40, _⟩ => ⟨S128x128x64x64, .f32⟩
  | .hbm, ⟨41, _⟩ => ⟨S128x128x64x64, .f32⟩
  | .hbm, ⟨42, _⟩ => ⟨S_, .f32⟩
  | .hbm, ⟨43, _⟩ => ⟨S128x128x64x64, .f32⟩
  | .hbm, ⟨44, _⟩ => ⟨S128x128x64x64, .f32⟩
  | .hbm, ⟨45, _⟩ => ⟨S128x128x64x64, .f32⟩
  | .hbm, ⟨46, _⟩ => ⟨S128x128x64x64, .f32⟩
  | .hbm, ⟨47, _⟩ => ⟨S128x128x64x64, .i1⟩
  | .hbm, ⟨48, _⟩ => ⟨S128x128x64x64, .f32⟩
  | .hbm, ⟨49, _⟩ => ⟨S128x128x64x64, .f32⟩
  | .hbm, ⟨50, _⟩ => ⟨S128x128x64x64, .f32⟩
  | .hbm, ⟨51, _⟩ => ⟨S128x128x64x64, .f32⟩
  | .hbm, ⟨52, _⟩ => ⟨S128x128x64x64, .f32⟩
  | .hbm, ⟨53, _⟩ => ⟨S128x128x64x64, .f32⟩
  | .hbm, ⟨54, _⟩ => ⟨S128x128x64x64, .f32⟩
  | .hbm, ⟨55, _⟩ => ⟨S128x128x64x64, .f32⟩
  | .hbm, ⟨56, _⟩ => ⟨S1x1x64x64, .i1⟩
  | .hbm, ⟨57, _⟩ => ⟨S1x1x64x64, .f32⟩
  | .hbm, ⟨58, _⟩ => ⟨S128x128x64x64, .f32⟩
  | .hbm, ⟨59, _⟩ => ⟨S128x128x64x64, .f32⟩
  | .hbm, ⟨60, _⟩ => ⟨S_, .f32⟩
  | .hbm, ⟨61, _⟩ => ⟨S_, .f32⟩
  | .hbm, ⟨62, _⟩ => ⟨S64x64, .f32⟩
  | .hbm, ⟨63, _⟩ => ⟨S64x64, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]

class Facts₀ : Prop where
  bcast_S128x64_S1x128x64_1_2 : S128x64.BroadcastsInDim S1x128x64 (![1, 2] : Fin 2 → Fin S1x128x64.rank)
  bcast_S128x64_S128x1x64_0_2 : S128x64.BroadcastsInDim S128x1x64 (![0, 2] : Fin 2 → Fin S128x1x64.rank)
  bcast_S1x128x64_S128x128x64_0_1_2 : S1x128x64.BroadcastsInDim S128x128x64 (![0, 1, 2] : Fin 3 → Fin S128x128x64.rank)
  bcast_S128x1x64_S128x128x64_0_1_2 : S128x1x64.BroadcastsInDim S128x128x64 (![0, 1, 2] : Fin 3 → Fin S128x128x64.rank)
  bcast_S_S128x128x64 : S_.BroadcastsInDim S128x128x64 (![] : Fin 0 → Fin S128x128x64.rank)
  reducesTo_S128x128x64_S128x128_d2 : S128x128x64.ReducesTo [2] S128x128
  h_S_ : 0 < S_.numel
  slices_S128x128_S64x64_0_0 : S128x128.Slices ![0, 0] S64x64
  bcast_S_S64x64 : S_.BroadcastsInDim S64x64 (![] : Fin 0 → Fin S64x64.rank)
  bcast_S128x128_S128x128x1x1_0_1 : S128x128.BroadcastsInDim S128x128x1x1 (![0, 1] : Fin 2 → Fin S128x128x1x1.rank)
  bcast_S64x64_S1x1x64x64_2_3 : S64x64.BroadcastsInDim S1x1x64x64 (![2, 3] : Fin 2 → Fin S1x1x64x64.rank)
  bcast_S128x128x1x1_S128x128x64x64_0_1_2_3 : S128x128x1x1.BroadcastsInDim S128x128x64x64 (![0, 1, 2, 3] : Fin 4 → Fin S128x128x64x64.rank)
  bcast_S1x1x64x64_S128x128x64x64_0_1_2_3 : S1x1x64x64.BroadcastsInDim S128x128x64x64 (![0, 1, 2, 3] : Fin 4 → Fin S128x128x64x64.rank)
  bcast_S_S128x128x64x64 : S_.BroadcastsInDim S128x128x64x64 (![] : Fin 0 → Fin S128x128x64x64.rank)
  reducesTo_S128x128x64x64_S_d0_1_2_3 : S128x128x64x64.ReducesTo [0, 1, 2, 3] S_
  reducesTo_S64x64_S_d0_1 : S64x64.ReducesTo [0, 1] S_
  shapeCasts_S_S1 : S_.ShapeCasts S1

variable [Facts₀]

class Facts : Prop extends Facts₀ where

variable [Facts]
-- ==== Proof.Found.lean ====
/-
  What each control case of the kernel body leaves in the buffers it carries between grid points, as values.

  The body keeps five tables across its eight grid points: the 128×128 table `P` of pairwise distances of the
  predictions, the 64×64 table `Q` of pairwise distances of the targets, the 64×64 off-diagonal mask `M`, a
  one-element accumulator, and the one-element weighted second term. The first point fills `P`, `Q`, `M` and the
  second term and zeroes the accumulator; EVERY point then adds, to the accumulator, the masked softplus summed over
  its own 16 rows of `P` against the four 16-row strips of `Q` and `M`; the last point divides the difference of the
  accumulator and the second term by the normaliser and stores it as the result.
-/
import proofs.«105743_j90795608637707_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Found

open Cert.KernelIdeal Cert.KernelIdeal.Gen

variable {F : FTy → Type} [FloatOps F]

/-- The zero offsets of a whole-buffer access, as the constant function. -/
theorem hz : (![0, 0] : Fin 2 → Nat) = fun _ => 0 := funext fun a => by fin_cases a <;> rfl

/-- A strip of 16 rows starting at row `o` lies inside a 64×64 table. -/
theorem strip_inb (o : ℕ) (ho : o + 16 ≤ 64) : ∀ a, (![o, 0] : Fin 2 → ℕ) a + S16x64.size a ≤ S64x64.size a :=
  Rect.inb₂ ho (show (0 : ℕ) + 64 ≤ 64 from Nat.le_refl _)

/-- Rows `16·t … 16·t + 15` of the prediction table, `t` the grid point's coordinate: the slab the point works on. -/
def slab (P : Vec F S128x128 .f32) (i : grid0.Coords) : Vec F S16x128 .f32 :=
  fun j => P ((Rect.unit (s := S128x128) (k0_off1 i) S16x128.size (k0_off1_inb i)).idx j)

/-- Rows `o … o + 15` of a 64×64 table. -/
def strip (Q : Vec F S64x64 .f32) (o : ℕ) (ho : o + 16 ≤ 64) : Vec F S16x64 .f32 :=
  fun j => Q ((Rect.unit (s := S64x64) ![o, 0] S16x64.size (strip_inb o ho)).idx j)

/-- ONE grid point's update of the accumulator: from the zero, the four strips' masked softplus sums of the point's
    slab added one after the other, and the total added to what the accumulator held. -/
def accStep (P : Vec F S128x128 .f32) (Q M : Vec F S64x64 .f32) (i : grid0.Coords) (acc : Vec F S1x1 .f32) :
    Vec F S1x1 .f32 :=
  k0_pay1
    (k0_pay11 (slab P i)
      (k0_pay10 (slab P i) k0_pay8
        (k0_pay9 (slab P i) (strip Q 0 (by decide)) (strip M 0 (by decide)))
        (strip Q 16 (by decide)) (strip M 16 (by decide)))
      (strip Q 32 (by decide)) (strip M 32 (by decide)))
    (strip M 48 (by decide))
    (k0_pay12 (slab P i) (strip Q 48 (by decide)))
    (FloatOps.ofBits .f32 0x00000000#32)
    (k0_pay13 (slab P i) (strip Q 48 (by decide)))
    acc

variable (c : Dev nD) (i : grid0.Coords)
  (a1 : Memref sig .tc .vmem S128x64 .f32) (h1 : a1.IsWhole) (a2 : Memref sig .tc .vmem S64x64 .f32) (h2 : a2.IsWhole)
  (a3 : Memref sig .tc .vmem S1x1 .f32) (h3 : a3.IsWhole) (a4 : Memref sig .tc .vmem S128x128 .f32) (h4 : a4.IsWhole)
  (a5 : Memref sig .tc .vmem S64x64 .f32) (h5 : a5.IsWhole) (a6 : Memref sig .tc .vmem S64x64 .f32) (h6 : a6.IsWhole)
  (a7 : Memref sig .tc .vmem S1x1 .f32) (h7 : a7.IsWhole) (a8 : Memref sig .tc .vmem S1x1 .f32) (h8 : a8.IsWhole)

/-! ## The first point -/

section first
variable (hc0 : cond0_0 i) (hc1 : ¬cond0_1 i) (x0 : Vec F S128x64 .f32) (x1 : Vec F S64x64 .f32)

/-- It leaves the prediction table computed from the whole prediction block. -/
theorem first_P : sout0_A_0 c i a1 h1 a2 h2 a3 h3 a4 h4 a5 h5 a6 h6 a7 h7 a8 h8 hc0 hc1 x0 x1 = k0_pay3 x0 := by
  unfold sout0_A_0
  rw [View.read_writes_eq_canon _ _ _ (scover0_A_0 c i a1 h1 a2 h2 a3 h3 a4 h4 a5 h5 a6 h6 a7 h7 a8 h8 hc0 hc1 x0 x1)]
  unfold kernelRun0_A
  dsimp only
  sl_unfold_words
  rw [View.canon_unit_zero (S := S128x128) hz]
  simp only [View.readAt_eq_ld, h1.read_unread, View.ld_unit_zero (S := S128x64) hz]

/-- It leaves the target table computed from the whole target block. -/
theorem first_Q : sout0_A_1 c i a1 h1 a2 h2 a3 h3 a4 h4 a5 h5 a6 h6 a7 h7 a8 h8 hc0 hc1 x0 x1 = k0_pay4 x1 := by
  unfold sout0_A_1
  rw [View.read_writes_eq_canon _ _ _ (scover0_A_1 c i a1 h1 a2 h2 a3 h3 a4 h4 a5 h5 a6 h6 a7 h7 a8 h8 hc0 hc1 x0 x1)]
  unfold kernelRun0_A
  dsimp only
  sl_unfold_words
  rw [View.canon_unit_zero (S := S64x64) hz]
  simp only [View.readAt_eq_ld, h2.read_unread, View.ld_unit_zero (S := S64x64) hz]

/-- It leaves the mask. -/
theorem first_M : sout0_A_2 c i a1 h1 a2 h2 a3 h3 a4 h4 a5 h5 a6 h6 a7 h7 a8 h8 hc0 hc1 x0 x1 = k0_pay5 := by
  unfold sout0_A_2
  rw [View.read_writes_eq_canon _ _ _ (scover0_A_2 c i a1 h1 a2 h2 a3 h3 a4 h4 a5 h5 a6 h6 a7 h7 a8 h8 hc0 hc1 x0 x1)]
  unfold kernelRun0_A
  dsimp only
  sl_unfold_words
  rw [View.canon_unit_zero (S := S64x64) hz]

/-- It leaves the weighted second term, of the target table and the mask it has just stored and read back. -/
theorem first_T : sout0_A_4 c i a1 h1 a2 h2 a3 h3 a4 h4 a5 h5 a6 h6 a7 h7 a8 h8 hc0 hc1 x0 x1 = k0_pay6 (k0_pay4 x1) k0_pay5 := by
  unfold sout0_A_4
  rw [View.read_writes_eq_canon _ _ _ (scover0_A_4 c i a1 h1 a2 h2 a3 h3 a4 h4 a5 h5 a6 h6 a7 h7 a8 h8 hc0 hc1 x0 x1)]
  unfold kernelRun0_A
  dsimp only
  sl_unfold_words
  rw [View.canon_unit_zero (S := S1x1) hz]
  simp only [View.readCov_unit_zero (S := S64x64) _ hz, View.readAt_eq_ld, h2.read_unread, View.ld_unit_zero (S := S64x64) hz]

/-- It leaves the accumulator at its own update of the zero it has just stored. -/
theorem first_acc : sout0_A_3 c i a1 h1 a2 h2 a3 h3 a4 h4 a5 h5 a6 h6 a7 h7 a8 h8 hc0 hc1 x0 x1 = accStep (k0_pay3 x0) (k0_pay4 x1) k0_pay5 i k0_pay7 := by
  unfold sout0_A_3
  rw [View.read_writes_eq_canon _ _ _ (scover0_A_3 c i a1 h1 a2 h2 a3 h3 a4 h4 a5 h5 a6 h6 a7 h7 a8 h8 hc0 hc1 x0 x1)]
  unfold kernelRun0_A
  dsimp only
  sl_unfold_words
  rw [View.canon_cons_unit_zero (S := S1x1) hz]
  simp only [View.readAt_writes_junk_eq_canon, View.readCov_eq_canon', View.canon_unit_zero (S := S128x128) hz,
    View.canon_unit_zero (S := S64x64) hz, View.canon_unit_zero (S := S1x1) hz, View.readAt_eq_ld,
    h1.read_unread, h2.read_unread, View.ld_unit_zero (S := S128x64) hz, View.ld_unit_zero (S := S64x64) hz]
  rfl

end first

/-! ## A point that is neither the first nor the last -/

section middle
variable (hc0 : ¬cond0_0 i) (hc1 : ¬cond0_1 i) (x0 : Vec F S128x64 .f32) (x1 : Vec F S64x64 .f32)
  (xs0 : Vec F S128x128 .f32) (xs1 xs2 : Vec F S64x64 .f32) (xs3 xs4 : Vec F S1x1 .f32)

/-- It leaves the accumulator at its update of what the point before left, over the tables the point before left. -/
theorem middle_acc : sout0_B_3 c i a1 h1 a2 h2 a3 h3 a4 h4 a5 h5 a6 h6 a7 h7 a8 h8 hc0 hc1 x0 x1 xs0 xs1 xs2 xs3 xs4 = accStep xs0 xs1 xs2 i xs3 := by
  unfold sout0_B_3
  rw [View.read_writes_eq_canon _ _ _ (scover0_B_3 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero (S := S1x1) hz]
  simp only [View.readAt_eq_ld, h4.read_unread, h5.read_unread, h6.read_unread, h7.read_unread,
    View.ld_unit_zero (S := S1x1) hz]
  rfl

end middle

/-! ## The last point -/

section last
variable (hc0 : ¬cond0_0 i) (hc1 : cond0_1 i) (x0 : Vec F S128x64 .f32) (x1 : Vec F S64x64 .f32)
  (xs0 : Vec F S128x128 .f32) (xs1 xs2 : Vec F S64x64 .f32) (xs3 xs4 : Vec F S1x1 .f32)

/-- It leaves the accumulator at its update of what the point before left; -/
theorem last_acc : sout0_C_3 c i a1 h1 a2 h2 a3 h3 a4 h4 a5 h5 a6 h6 a7 h7 a8 h8 hc0 hc1 x0 x1 xs0 xs1 xs2 xs3 xs4 = accStep xs0 xs1 xs2 i xs3 := by
  unfold sout0_C_3
  rw [View.read_writes_eq_canon _ _ _ (scover0_C_3 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero (S := S1x1) hz]
  simp only [View.readAt_eq_ld, h4.read_unread, h5.read_unread, h6.read_unread, h7.read_unread,
    View.ld_unit_zero (S := S1x1) hz]
  rfl

/-- and in the result's block the normalised difference of that accumulator, read back, and the second term. -/
theorem last_out : out0_C_2 c i a1 h1 a2 h2 a3 h3 a4 h4 a5 h5 a6 h6 a7 h7 a8 h8 hc0 hc1 x0 x1 xs0 xs1 xs2 xs3 xs4 = k0_pay2 (accStep xs0 xs1 xs2 i xs3) xs4 := by
  unfold out0_C_2
  rw [View.read_writes_eq_canon _ _ _ (cover0_C_2 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero (S := S1x1) hz]
  simp only [View.readCov_unit_zero (S := S1x1) _ hz, View.readAt_eq_ld, h4.read_unread, h5.read_unread, h6.read_unread,
    h7.read_unread, h8.read_unread, View.ld_unit_zero (S := S1x1) hz]
  rfl

end last

end Cert.KernelIdeal.Found

end
-- ==== Proof.Chain.lean ====
/-
  The carried buffers after each grid point, by induction on the point.

  After every point the three tables hold what the first point computed from the two whole argument blocks, the
  second term holds its weighted sum, and the accumulator holds the running total: the first point's update of the
  zero, then each later point's update of the total before it. After the last point the result's block holds the
  normalised difference of the final total and the second term.
-/
import proofs.«105743_j90795608637707_2_alg».proof.Proof.Found

set_option maxRecDepth 16384

noncomputable section

open Idealize.ShloMosaic Idealize.ShloMosaic.TcCoe Idealize.SL.Sem

namespace Cert.KernelIdeal.Chain

open Cert.KernelIdeal Cert.KernelIdeal.Gen Cert.KernelIdeal.Found

variable {F : FTy → Type} [FloatOps F]
variable (m : (ℓ : Loc nD τ sig) → Buf (Elt F) ℓ)

theorem N_eq : cfg0.N = 8 := N_0
theorem pos0 : 0 < cfg0.N := by rw [N_eq]; decide

/-- The prediction table: the first point's, of the whole prediction block. -/
def tabP (c : Dev nD) : Vec F S128x128 .f32 := k0_pay3 (iblk m c 0 ⟨0, pos0⟩)
/-- The target table: the first point's, of the whole target block. -/
def tabQ (c : Dev nD) : Vec F S64x64 .f32 := k0_pay4 (iblk m c 1 ⟨0, pos0⟩)
/-- The weighted second term. -/
def second (c : Dev nD) : Vec F S1x1 .f32 := k0_pay6 (tabQ m c) k0_pay5

/-- The running total after point `n`. -/
def total (c : Dev nD) : (n : ℕ) → n < cfg0.N → Vec F S1x1 .f32
  | 0, h => accStep (tabP m c) (tabQ m c) k0_pay5 (grid0.coords ⟨0, h⟩) k0_pay7
  | n + 1, h => accStep (tabP m c) (tabQ m c) k0_pay5 (grid0.coords ⟨n + 1, h⟩) (total c n (Nat.lt_of_succ_lt h))

/-- What the five carried buffers hold after point `n`. -/
theorem carried (c : Dev nD) : ∀ (n : ℕ) (h : n < cfg0.N),
    (outsAt0 m c n h).2 = (tabP m c, tabQ m c, k0_pay5, total m c n h, second m c)
  | 0, h => by
    rw [outsAt0_A m c ⟨0, h⟩ rfl (by show ¬(0 % 8 = 7); decide)]
    dsimp only
    rw [first_P, first_Q, first_M, first_acc, first_T]
    rfl
  | n + 1, h => by
    have hN : n + 1 < 8 := lt_of_lt_of_eq h N_eq
    have ih := carried c n (Nat.lt_of_succ_lt h)
    have h0 : ¬(⟨n + 1, h⟩ : Fin cfg0.N).val % 8 = 0 := by dsimp only; omega
    by_cases h7 : (⟨n + 1, h⟩ : Fin cfg0.N).val % 8 = 7
    · rw [outsAt0_C m c ⟨n + 1, h⟩ h0 h7]
      unfold sout0_C_0 sout0_C_1 sout0_C_2 sout0_C_4
      dsimp only
      rw [last_acc]
      show ((outsAt0 m c n _).2.1, (outsAt0 m c n _).2.2.1, (outsAt0 m c n _).2.2.2.1,
        accStep (outsAt0 m c n _).2.1 (outsAt0 m c n _).2.2.1 (outsAt0 m c n _).2.2.2.1 _ (outsAt0 m c n _).2.2.2.2.1,
        (outsAt0 m c n _).2.2.2.2.2) = _
      rw [ih]
      rfl
    · rw [outsAt0_B m c ⟨n + 1, h⟩ h0 h7]
      unfold sout0_B_0 sout0_B_1 sout0_B_2 sout0_B_4
      dsimp only
      rw [middle_acc]
      show ((outsAt0 m c n _).2.1, (outsAt0 m c n _).2.2.1, (outsAt0 m c n _).2.2.2.1,
        accStep (outsAt0 m c n _).2.1 (outsAt0 m c n _).2.2.1 (outsAt0 m c n _).2.2.2.1 _ (outsAt0 m c n _).2.2.2.2.1,
        (outsAt0 m c n _).2.2.2.2.2) = _
      rw [ih]
      rfl

/-- The last point's index. -/
theorem lt7 : 7 < cfg0.N := by rw [N_eq]; decide

/-- What the result's block holds after the last point. -/
theorem result_block (c : Dev nD) : (outsAt0 m c 7 lt7).1 = k0_pay2 (total m c 7 lt7) (second m c) := by
  have ih := carried m c 6 (Nat.lt_of_succ_lt lt7)
  rw [outsAt0_C m c ⟨7, lt7⟩ (by show ¬(7 % 8 = 0); decide) rfl]
  dsimp only
  rw [last_out]
  show k0_pay2 (accStep (outsAt0 m c 6 _).2.1 (outsAt0 m c 6 _).2.2.1 (outsAt0 m c 6 _).2.2.2.1 _ (outsAt0 m c 6 _).2.2.2.2.1)
    (outsAt0 m c 6 _).2.2.2.2.2 = _
  rw [ih]
  rfl

end Cert.KernelIdeal.Chain

end
-- ==== Proof.KernelRun.lean ====
/-
  The idealized kernel's whole run, read: the result `[1]` array and the unchanged arguments.

  The result window's block never moves and is written back once, after the last grid point: that one block is the
  whole 1×1 array, so the array ends holding what the last point left in the block. The host then recasts the 1×1
  array as the length-one result.
-/
import proofs.«105743_j90795608637707_2_alg».proof.Proof.Chain
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Found Cert.KernelIdeal.Chain

variable {F : FTy → Type} [FloatOps F]
variable (m : (ℓ : Loc nD τ sig) → Buf (Elt F) ℓ) (ρ : Dev nD → PrngReg)

/-- The last grid point. -/
abbrev tLast : Fin cfg0.N := ⟨7, lt7⟩

/-- The 1×1 array the region writes: the normalised difference of the final total and the second term. -/
abbrev block (c : Dev nD) : Buf (Elt F) ((c : Thread nD τ).loc main_v1) :=
  k0_pay2 (total m c 7 lt7) (second m c)

/-- The one write-back, after the last point, writes it: the block at index (0, 0) of a 1×1 array is the array. -/
theorem flushed_eq (c : Dev nD) (t : Fin cfg0.N) (hf : (cfg0.win 2).flush t = true) :
    (dats m 0 c).flushed 2 t = ((cfg0.win 2).blk t).view.read (Elt F) (block m c) := by
  have hN : cfg0.N = 8 := N_0
  have h7 : t.val = 7 := by have := (flush0_2 t).mp hf; have := t.isLt; omega
  obtain rfl : t = tLast := Fin.ext h7
  show (cfg0.win 2).cut (grid0.coords tLast) ((dats m 0 c).after 2 tLast) = _
  rw [after0_2]
  show (cfg0.win 2).cut (grid0.coords tLast) (outsAt0 m c 7 lt7).1 = _
  rw [result_block]
  have hz' : (fun a => win0_2.index tLast a * main_v1.ty.shape.size a) = fun _ => 0 :=
    funext fun a => by fin_cases a <;> decide
  exact (Memref.read_access_unit_zero (Elt F) main_v1 hz' (fun a => by rw [congrFun hz' a]; simp) (block m c)).symm

/-- So the region's array ends holding it. -/
theorem final_block (c : Dev nD) : (dats m 0 c).arrAt 2 cfg0.N = block m c :=
  (dats m 0 c).arrAt_eq_of_cover 2 (block m c) (flushed_eq m c) fun i =>
    ⟨tLast, (flush0_2 tLast).mpr rfl, by
      show i ∈ ((View.whole main_v1).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The program's result: the 1×1 array recast to length one. -/
abbrev result (c : Dev nD) : Buf (Elt F) ((c : Thread nD τ).loc main_v2) :=
  shapeCast S1 (block m c) shapeCasts_S1x1_S1

/-- What the host operation after the region leaves in the result buffer. -/
theorem tail_result (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = block m c :=
    (Pipeline.withArrays_arr spec0 launch0.win.arr_inj c _ _ 2).trans (final_block m c)
  funext i
  show shapeCast S1 (Pipeline.withArrays (cfgs 0).spec c (V0 m c) (fun w => (dats m 0 c).arrAt w (cfgs 0).N)
    (Proc.devRef .tc main_v1)) shapeCasts_S1x1_S1 i = shapeCast S1 (block m c) shapeCasts_S1x1_S1 i
  rw [e]

/-- THE RUN, read: every weakly fair execution terminates with the result buffer at `result` and both argument
    arrays as launched. -/
theorem run : θ_run defs (onTc (τ := τ) (main (F := F))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_result m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Whole

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.Regroup.lean ====
/-
  The tiled sum is the whole sum.

  A sum over `(i, j, k, l) ∈ 128 × 128 × 64 × 64` in a commutative monoid, taken tile by tile — for each of the 8
  slabs of 16 values of `i`, the four strips of 16 values of `k` one after the other from zero, each strip summed
  over `(a, j, b, l)` — is the sum over all indices. Only commutativity and associativity of the addition are used,
  so it holds in the extended reals with no finiteness assumption.
-/
import proofs.«105743_j90795608637707_2_alg».proof.Proof.LibERealSums
import Mathlib.Algebra.BigOperators.Fin
import Mathlib.Algebra.BigOperators.Group.Finset.Basic

open scoped BigOperators

namespace Cert.Regroup

variable {M : Type*} [AddCommMonoid M]

/-- Row `a` of slab `t`: the index `16·t + a` of 128. -/
def up128 (t : Fin 8) (a : Fin 16) : Fin 128 := ⟨16 * t.val + a.val, by have := t.isLt; have := a.isLt; omega⟩
/-- Row `b` of strip `r`: the index `16·r + b` of 64. -/
def up64 (r : Fin 4) (b : Fin 16) : Fin 64 := ⟨16 * r.val + b.val, by have := r.isLt; have := b.isLt; omega⟩

/-- One tile: slab `t` against strip `r`. -/
def tile (f : Fin 128 → Fin 128 → Fin 64 → Fin 64 → M) (t : Fin 8) (r : Fin 4) : M :=
  ∑ a : Fin 16, ∑ j : Fin 128, ∑ b : Fin 16, ∑ l : Fin 64, f (up128 t a) j (up64 r b) l

/-- One slab: its four tiles added one after the other, from zero. -/
def slabSum (f : Fin 128 → Fin 128 → Fin 64 → Fin 64 → M) (t : Fin 8) : M :=
  (((0 + tile f t 0) + tile f t 1) + tile f t 2) + tile f t 3

/-- A slab's four tiles are the slab summed over every `k`. -/
theorem slabSum_eq (f : Fin 128 → Fin 128 → Fin 64 → Fin 64 → M) (t : Fin 8) :
    slabSum f t = ∑ a : Fin 16, ∑ j : Fin 128, ∑ k : Fin 64, ∑ l : Fin 64, f (up128 t a) j k l := by
  have hk : ∀ g : Fin 64 → M, ∑ k : Fin 64, g k = ∑ r : Fin 4, ∑ b : Fin 16, g (up64 r b) := fun g =>
    Cert.LibERealSums.sum_fin_blocks (m := 4) (n := 16) (by decide) up64 (fun _ _ => rfl) g
  have hk' : ∀ (a : Fin 16) (j : Fin 128), ∑ k : Fin 64, ∑ l : Fin 64, f (up128 t a) j k l
      = ∑ r : Fin 4, ∑ b : Fin 16, ∑ l : Fin 64, f (up128 t a) j (up64 r b) l :=
    fun a j => hk fun k => ∑ l : Fin 64, f (up128 t a) j k l
  unfold slabSum tile
  rw [zero_add]
  simp only [hk', Fin.sum_univ_four, Finset.sum_add_distrib]

/-- The eight slabs are the whole sum. -/
theorem sum_slabs (f : Fin 128 → Fin 128 → Fin 64 → Fin 64 → M) :
    ∑ t : Fin 8, slabSum f t = ∑ i : Fin 128, ∑ j : Fin 128, ∑ k : Fin 64, ∑ l : Fin 64, f i j k l := by
  simp only [slabSum_eq]
  exact (Cert.LibERealSums.sum_fin_blocks (m := 8) (n := 16) (by decide) up128 (fun _ _ => rfl)
    (fun i => ∑ j : Fin 128, ∑ k : Fin 64, ∑ l : Fin 64, f i j k l)).symm

/-- A running total that starts from zero and adds one term per step is the sum of the terms so far. -/
theorem running (g : ℕ → M) (S : ℕ → M) (h0 : S 0 = 0 + g 0) (hs : ∀ n, S (n + 1) = S n + g (n + 1)) :
    ∀ n, S n = ∑ t ∈ Finset.range (n + 1), g t
  | 0 => by rw [h0, zero_add, Finset.sum_range_one]
  | n + 1 => by rw [hs, running g S h0 hs n, Finset.sum_range_succ _ (n + 1)]

end Cert.Regroup
-- ==== Proof.Blocks.lean ====
/-
  The blocks the region reads, and the rows a grid point works on, at coordinates.

  Both input windows hold their whole array at every grid point (their index maps are constant): the prediction
  window the whole prediction array, the target window the leading 64 rows of the target array, which the host
  sliced off before the region. A point's slab of the prediction table is rows `16·t … 16·t + 15`, and strip `r` of a
  64×64 table is rows `16·r … 16·r + 15`.
-/
import proofs.«105743_j90795608637707_2_alg».proof.Proof.Found
import proofs.«105743_j90795608637707_2_alg».proof.Proof.Regroup
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Found Cert.Regroup

variable {F : FTy → Type} [FloatOps F]
variable (m : (ℓ : Loc nD τ sig) → Buf (Elt F) ℓ)

/-- A grid point as a slab number. -/
def slabOf (t : Fin cfg0.N) : Fin 8 := ⟨t.val, lt_of_lt_of_eq t.isLt N_0⟩

/-- Where a point's slab starts: row `16·t`, column 0. -/
theorem off_slab : ∀ t : Fin cfg0.N, k0_off1 (grid0.coords t) 0 = 16 * t.val ∧ k0_off1 (grid0.coords t) 1 = 0 :=
  (by decide +kernel : ∀ t : Fin grid0.N, k0_off1 (grid0.coords t) 0 = 16 * t.val ∧ k0_off1 (grid0.coords t) 1 = 0)

/-- A point's slab of the prediction table at `(a, j)` is the table at `(16·t + a, j)`. -/
theorem slab_apply (P : Vec F S128x128 .f32) (t : Fin cfg0.N) (a : Fin 16) (j : Fin 128) :
    slab P (grid0.coords t) (ix2 a j) = P (ix2 (up128 (slabOf t) a) j) := by
  unfold slab
  refine congrArg P (funext fun d => Fin.ext ?_)
  match d with
  | ⟨0, _⟩ =>
    show k0_off1 (grid0.coords t) 0 + 1 * a.val = 16 * t.val + a.val
    rw [(off_slab t).1]; omega
  | ⟨1, _⟩ =>
    show k0_off1 (grid0.coords t) 1 + 1 * j.val = j.val
    rw [(off_slab t).2]; omega

/-- Strip `r` of a 64×64 table at `(b, l)` is the table at `(16·r + b, l)`. -/
theorem strip_apply (Q : Vec F S64x64 .f32) (r : Fin 4) (o : ℕ) (ho : o + 16 ≤ 64) (hr : o = 16 * r.val) (b : Fin 16)
    (l : Fin 64) : strip Q o ho (ix2 b l) = Q (ix2 (up64 r b) l) := by
  subst hr
  unfold strip
  refine congrArg Q (funext fun d => Fin.ext ?_)
  match d with
  | ⟨0, _⟩ => show 16 * r.val + 1 * b.val = 16 * r.val + b.val; omega
  | ⟨1, _⟩ => show 0 + 1 * l.val = l.val; omega

/-- Both input windows sit at block (0, 0) at every point. -/
theorem index_zero : ∀ t : Fin cfg0.N, (win0_0.index t 0 = 0 ∧ win0_0.index t 1 = 0) ∧ (win0_1.index t 0 = 0 ∧ win0_1.index t 1 = 0) :=
  (by decide +kernel : ∀ t : Fin grid0.N, (win0_0.index t 0 = 0 ∧ win0_0.index t 1 = 0) ∧ (win0_1.index t 0 = 0 ∧ win0_1.index t 1 = 0))

/-- The prediction window's block is the whole prediction array as launched. -/
theorem iblk_pred (c : Dev nD) (t : Fin cfg0.N) :
    (iblk m c 0 t : Vec F S128x64 .f32) = m ((c : Thread nD τ).loc main_arg0) := by
  funext j
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 128 + 1 * (j 0).val = (j 0).val; rw [(index_zero t).1.1]; omega
  | ⟨1, _⟩ => show win0_0.index t 1 * 64 + 1 * (j 1).val = (j 1).val; rw [(index_zero t).1.2]; omega

/-- What the host leaves in the target window's array before the region: the leading 64 rows of the target array. -/
theorem V_true (c : Dev nD) : (V m c main_v0 : S64x64.Idx → Elt F .f32)
    = extractStridedSlice S64x64 ![0, 0] (m ((c : Thread nD τ).loc main_arg1)) slices_S128x64_S64x64_0_0 := by
  show StableHlo.after hostOps0 (fun b => m (c, b)) (Proc.devRef .tc main_v0) = _
  after_results

/-- The target window's block at `(k, l)` is the target array at `(k, l)`, `k < 64`. -/
theorem iblk_true (c : Dev nD) (t : Fin cfg0.N) (k l : Fin 64) :
    (iblk m c 1 t : Vec F S64x64 .f32) (ix2 k l)
      = m ((c : Thread nD τ).loc main_arg1) (ix2 (Fin.castLE (by decide : 64 ≤ 128) k) l) := by
  unfold iblk
  rw [View.read_apply]
  show V m c main_v0 _ = _
  rw [V_true]
  unfold extractStridedSlice
  refine congrArg (m (c.tc.loc main_arg1)) (funext fun a => Fin.ext ?_)
  match a with
  | ⟨0, _⟩ => show 0 + (win0_1.index t 0 * 64 + 1 * k.val) = k.val; rw [(index_zero t).2.1]; omega
  | ⟨1, _⟩ => show 0 + (win0_1.index t 1 * 64 + 1 * l.val) = l.val; rw [(index_zero t).2.2]; omega

end Cert.KernelIdeal.Blocks

end
-- ==== Proof.Spec.lean ====
/-
  The loss as one function of the two argument arrays, over the extended reals.

  For an array `y` with rows `y i` of length 64, the shifted pairwise distance of rows `i` and `j` is
  `d y i j = √(∑ c, (y j c − y i c + ε)²)`. With `P = d y_pred` on all 128 rows, `Q = d y_true` on the first 64
  rows, and `M k l = 1` off the diagonal and `0` on it, the loss is

      ( ∑ i j k l, softplus(1 · (P i j − Q k l)) · M k l  −  16384 · ∑ k l, Q k l · M k l ) / 508032

  where `softplus x = max 0 x + log(1 + exp(−|0 − x|))` is the stable form of `log(1 + eˣ)` both programs compute.
  The constants are kept as the binary values of their f32 words; the same words occur in both programs, so none
  is ever evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shift added to every coordinate difference: the f32 nearest `1e-6`. -/
abbrev eps : EReal := Ideal.ofBits .f32 0x358637BD#32
/-- The unit scale applied to the distance difference (the f32 `1.0`). -/
abbrev unit : EReal := Ideal.ofBits .f32 0x3F800000#32
/-- The weight `128²` of the second term (the f32 `16384.0`). -/
abbrev weight : EReal := Ideal.ofBits .f32 0x46800000#32
/-- The normaliser `128 · 63²` (the f32 `508032.0`). -/
abbrev norm : EReal := Ideal.ofBits .f32 0x48F81000#32

/-- The shifted pairwise distance of rows `i` and `j` of a family of rows of length 64. -/
def dist {ι : Type} (y : ι → Fin 64 → EReal) (i j : ι) : EReal :=
  Ideal.sqrt (∑ c : Fin 64, (y j c - y i c + eps) * (y j c - y i c + eps))

/-- The off-diagonal indicator. -/
def offdiag (k l : Fin 64) : EReal := if k = l then 0 else 1

/-- The stable softplus: `max 0 x + log(1 + exp(−|0 − x|))`. -/
def softplus (x : EReal) : EReal :=
  max 0 x + Ideal.log1p (Ideal.exp (0 - max (0 - x) (-(0 - x))))

/-- One summand of the first term. -/
def term (p q w : EReal) : EReal := softplus (unit * (p - q)) * w

/-- The first term: the masked softplus summed over all `(i, j, k, l)`. -/
def first (P : Fin 128 → Fin 128 → EReal) (Q M : Fin 64 → Fin 64 → EReal) : EReal :=
  ∑ i : Fin 128, ∑ j : Fin 128, ∑ k : Fin 64, ∑ l : Fin 64, term (P i j) (Q k l) (M k l)

/-- The second term: the masked distances summed over `(k, l)`, weighted. -/
def second (Q M : Fin 64 → Fin 64 → EReal) : EReal :=
  weight * ∑ k : Fin 64, ∑ l : Fin 64, Q k l * M k l

/-- The loss from the two distance tables and the mask. -/
def lossOf (P : Fin 128 → Fin 128 → EReal) (Q M : Fin 64 → Fin 64 → EReal) : EReal :=
  Ideal.div (first P Q M - second Q M) norm

/-- Row `i` of a `[n, 64]` array. -/
abbrev rows {n : ℕ} (x : (⟨2, ![n, 64]⟩ : Shape).Idx → EReal) (i : Fin n) (c : Fin 64) : EReal := x (ix2 i c)

/-- Row `k < 64` of a `[128, 64]` array, as a row of its leading `[64, 64]` part. -/
abbrev lead (x : (⟨2, ![128, 64]⟩ : Shape).Idx → EReal) (k : Fin 64) (c : Fin 64) : EReal :=
  x (ix2 (Fin.castLE (by decide : 64 ≤ 128) k) c)

/-- The distance table of the predictions: all 128 rows. -/
def predTable (x0 : (⟨2, ![128, 64]⟩ : Shape).Idx → EReal) (i j : Fin 128) : EReal := dist (rows x0) i j

/-- The distance table of the targets: the first 64 rows. -/
def trueTable (x1 : (⟨2, ![128, 64]⟩ : Shape).Idx → EReal) (k l : Fin 64) : EReal := dist (lead x1) k l

/-- THE LOSS as a function of the two argument arrays. -/
def loss (x0 x1 : (⟨2, ![128, 64]⟩ : Shape).Idx → EReal) : EReal :=
  lossOf (predTable x0) (trueTable x1) offdiag

end Cert.Spec

end
-- ==== Proof.LibCoordinateLayout.lean ====
/-
  Layout operations, one-axis sums and total sums read at coordinates.

  General facts, independent of any program, for reading a vector expression at an index written by its
  coordinates:

  * a shape cast that inserts unit axes — `[a, b] → [a, 1, b]`, `[a, b] → [a, b, 1, 1]`, `[a, b] → [1, 1, a, b]`,
    `[a] → [a, 1]` — reads the operand at the index with the unit coordinates removed;
  * a broadcast along unit axes — `[1, b, c] → [a, b, c]`, `[a, 1, c] → [a, b, c]`, `[a, b, 1, 1] → [a, b, c, d]`,
    `[1, 1, c, d] → [a, b, c, d]` — reads the operand at `0` on those axes;
  * a sum of extended reals along one axis — the last axis of a rank-3 or rank-4 array, either axis of a matrix
    with a unit column — is the `Fin`-indexed sum of the source with the coordinate inserted;
  * a square root, exponential, `log (1 + ·)` and absolute value of a vector of extended reals act element by element;
  * a sum over a rank-4 index set in a commutative monoid is the fourfold sum over the coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibCoordinateLayout

open Idealize.ShloMosaic Idealize.ShloMosaic.ValueIdx

variable {α : Type}

/-! ## Shape casts that insert unit axes, read at coordinates

A shape cast keeps the row-major position. Inserting axes of extent one multiplies the position by one and adds
zero, so the element at the longer index is the element at the index with the unit coordinates removed. -/

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1, 1]` reads, at `(i, j, u, w)`, the operand at `(i, j)`. -/
theorem shapeCast_ab_ab11_apply {a b : ℕ} (x : (⟨2, ![a, b]⟩ : Shape).Idx → α)
    (h : (⟨2, ![a, b]⟩ : Shape).ShapeCasts ⟨4, ![a, b, 1, 1]⟩) (i : Fin a) (j : Fin b) (u w : Fin 1) :
    shapeCast ⟨4, ![a, b, 1, 1]⟩ x h (ix4 i j u w) = x (ix2 i j) :=
  shapeCast_apply x h _ _ (by
    have hu : u.val = 0 := by omega
    have hw : w.val = 0 := by omega
    rw [Shape.rowMajor_val_four, Shape.rowMajor_val_two]
    show i.val * b + j.val = ((i.val * b + j.val) * 1 + u.val) * 1 + w.val
    simp only [hu, hw, Nat.mul_one, Nat.add_zero])

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Broadcasts along unit axes, read at coordinates

A broadcast reads the operand at the same coordinates, with `0` on each axis where the operand has extent one. -/

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1, 1]` array broadcast to `[a, b, c, d]` reads, at `(i, j, k, l)`, the operand at `(i, j, 0, 0)`. -/
theorem broadcastTo_ab11_abcd_apply {a b c d : ℕ} (x : (⟨4, ![a, b, 1, 1]⟩ : Shape).Idx → α)
    (h : (⟨4, ![a, b, 1, 1]⟩ : Shape).Broadcasts ⟨4, ![a, b, c, d]⟩) (i : Fin a) (j : Fin b) (k : Fin c) (l : Fin d) :
    broadcastTo ⟨4, ![a, b, c, d]⟩ x h (ix4 i j k l) = x (ix4 i j (0 : Fin 1) (0 : Fin 1)) := by
  refine broadcastTo_apply x h (ix4 i j k l) (ix4 i j (0 : Fin 1) (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ => rfl

/-- A `[1, 1, c, d]` array broadcast to `[a, b, c, d]` reads, at `(i, j, k, l)`, the operand at `(0, 0, k, l)`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-! ## Sums along one axis, read at coordinates

A sum along one axis, at an index of the result, is the sum over that axis's coordinate of the source at the
result's index with the coordinate inserted. The accumulator is the zero word, the sum's neutral element. -/

/-- The sum of an `[a, b, c]` array along its last axis, at `(i, j)`. -/
theorem sum3_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec FTy.f32.bits) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun ax => Fin.ext (by
      match ax with
      | ⟨0, _⟩ => rfl
      | ⟨1, _⟩ => rfl
      | ⟨2, _⟩ => rfl)))

/-- The sum of an `[a, b, c, d]` array along its last axis, at `(i, j, k)`. -/
theorem sum4_axis3_apply {a b c d : ℕ} (src : FVec Ideal ⟨4, ![a, b, c, d]⟩ .f32)
    (h : Shape.Reduces ⟨4, ![a, b, c, d]⟩ [3] ⟨3, ![a, b, c]⟩) (hφ : FKind.Formats .f32)
    (hacc : (0x00000000#32 : BitVec FTy.f32.bits) = 0x00000000#32) (i : Fin a) (j : Fin b) (k : Fin c) :
    multiReduction .add [3] ⟨3, ![a, b, c]⟩ src 0x00000000#32 h hφ hacc (ix3 i j k) = ∑ l : Fin d, src (ix4 i j k l) :=
  (Ideal.multiReduction_add_single src 0x00000000#32 h hφ hacc (ix3 i j k)).trans
    (Finset.sum_congr rfl fun l _ => congrArg src (funext fun ax => Fin.ext (by
      match ax with
      | ⟨0, _⟩ => rfl
      | ⟨1, _⟩ => rfl
      | ⟨2, _⟩ => rfl
      | ⟨3, _⟩ => rfl)))

/-- The sum of an `[a, b]` array along its rows' entries, at `i`. -/
theorem sum2_axis1_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec FTy.f32.bits) = 0x00000000#32) (i : Fin a) :
    multiReduction .add [1] ⟨1, ![a]⟩ src 0x00000000#32 h hφ hacc (ix1 i) = ∑ j : Fin b, src (ix2 i j) :=
  (Ideal.multiReduction_add_single src 0x00000000#32 h hφ hacc (ix1 i)).trans
    (Finset.sum_congr rfl fun j _ => congrArg src (funext fun ax => Fin.ext (by
      match ax with
      | ⟨0, _⟩ => rfl
      | ⟨1, _⟩ => rfl)))

/-- The sum of a column `[a, 1]` down its rows, at the one index of the result. -/
theorem sum2_axis0_apply {a : ℕ} (src : FVec Ideal ⟨2, ![a, 1]⟩ .f32)
    (h : Shape.Reduces ⟨2, ![a, 1]⟩ [0] ⟨1, ![1]⟩) (hφ : FKind.Formats .f32)
    (hacc : (0x00000000#32 : BitVec FTy.f32.bits) = 0x00000000#32) (u : Fin 1) :
    multiReduction .add [0] ⟨1, ![1]⟩ src 0x00000000#32 h hφ hacc (ix1 u) = ∑ i : Fin a, src (ix2 i u) :=
  (Ideal.multiReduction_add_single src 0x00000000#32 h hφ hacc (ix1 u)).trans
    (Finset.sum_congr rfl fun i _ => congrArg src (funext fun ax => Fin.ext (by
      match ax with
      | ⟨0, _⟩ => rfl
      | ⟨1, _⟩ => rfl)))

/-! ## Pointwise operations at an index -/

section Pointwise
variable {s : Shape}

/-- A square root at an index is the square root of the element … -/
theorem sqrt_apply (a : FVec Ideal s .f32) (i : s.Idx) : sqrt a i = Ideal.sqrt (a i) := rfl
/-- … an exponential the exponential … -/
theorem exp_apply (a : FVec Ideal s .f32) (i : s.Idx) : exp a i = Ideal.exp (a i) := rfl
/-- … `log (1 + ·)` likewise … -/
theorem log1p_apply (a : FVec Ideal s .f32) (i : s.Idx) : log1p a i = Ideal.log1p (a i) := rfl
/-- … and an absolute value the larger of the element and its negation. -/
theorem absf_apply (a : FVec Ideal s .f32) (i : s.Idx) : absf a i = max (a i) (-(a i)) := rfl

end Pointwise

/-! ## A sum over a rank-4 index set as a fourfold sum

A rank-4 index set is the product of its four coordinate ranges, so a sum over it is the fourfold sum over the
coordinates; on the extended reals addition is a commutative monoid and no finiteness is asked. -/

/-- A rank-4 index is its four coordinates. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over a rank-4 index set is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.LibCoordinateLayout

end
-- ==== Proof.Payloads.lean ====
/-
  The kernel's pure values read at an index.

  Every value the kernel stores is an arithmetic expression over the vectors it loaded: shape casts and broadcasts
  that only re-index, pointwise arithmetic, and sums along one axis. Read at the extended reals and at an explicit
  index, each of them is the textbook expression of the specification:

  * the two distance tables: entry (i, j) is the square root of the sum over the 64 coordinates c of
    (y j c - y i c + eps) squared;
  * the mask: 1 off the diagonal, 0 on it;
  * the second term: the weight times the sum over (k, l) of the product of the target table and the mask;
  * a block: for a slab of 16 rows of the prediction table and a slab of 16 rows of the target table and of the mask,
    the sum over the slab's (a, j) and (b, l) of the masked softplus of the difference; the four bodies that
    accumulate a block all end in the same chain of four sums, proved once;
  * the final quotient.
-/
import proofs.«105743_j90795608637707_2_alg».proof.Proof.Gen.KernelIdeal.Skeleton
import proofs.«105743_j90795608637707_2_alg».proof.Proof.Spec
import proofs.«105743_j90795608637707_2_alg».proof.Proof.LibCoordinateLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Spec Cert.LibCoordinateLayout

/-! ## The two distance tables -/

/-- Entry `(i, j)` of the prediction table the kernel stores: the shifted distance of rows `i` and `j`. The row
`j` is laid along the first axis and the row `i` along the second, their difference shifted by `eps`, squared and
summed over the 64 coordinates. -/
theorem pay3_apply (v : Vec Ideal S128x64 .f32) (i j : Fin 128) :
    k0_pay3 (F := Ideal) v (ix2 i j) = dist (rows v) i j := by
  unfold k0_pay3
  simp only [shapeCast_self, sqrt_apply, sum3_axis2_apply _ reduces_S128x128x64_S128x128, mulf_apply, addf_apply,
    subf_apply, broadcast_apply, broadcastTo_1bc_abc_apply, broadcastTo_a1c_abc_apply, shapeCast_ab_1ab_apply,
    shapeCast_ab_a1b_apply]
  rfl

/-- Entry `(k, l)` of the target table the kernel stores: the same expression on a 64-row array. -/
theorem pay4_apply (v : Vec Ideal S64x64 .f32) (k l : Fin 64) :
    k0_pay4 (F := Ideal) v (ix2 k l) = dist (rows v) k l := by
  unfold k0_pay4
  simp only [shapeCast_self, sqrt_apply, sum3_axis2_apply _ reduces_S64x64x64_S64x64, mulf_apply, addf_apply,
    subf_apply, broadcast_apply, broadcastTo_1bc_abc_apply, broadcastTo_a1c_abc_apply, shapeCast_ab_1ab_apply,
    shapeCast_ab_a1b_apply]
  rfl

/-! ## The mask -/

/-- Entry `(k, l)` of the mask: the row number and the column number, as 32-bit words, differ exactly when
`k ≠ l`; the one-bit answer widened to a word and read as a signed integer is the real `1` or `0`. -/
theorem pay5_apply (k l : Fin 64) : k0_pay5 (F := Ideal) (ix2 k l) = offdiag k l := by
  unfold k0_pay5
  simp only [shapeCast_self]
  show (((((IntOp.cmpi .ne (iota .tc S64x64 32 [0] iota_S64x64_d0_w32 (ix2 k l))
      (iota .tc S64x64 32 [1] iota_S64x64_d1_w32 (ix2 k l))).setWidth 32).toInt : ℝ) : EReal)) = offdiag k l
  rw [iota_single_apply, iota_single_apply]
  show (((((IntOp.cmpi .ne (BitVec.ofNat 32 k.val) (BitVec.ofNat 32 l.val)).setWidth 32).toInt : ℝ) : EReal)) = offdiag k l
  unfold offdiag
  by_cases h : k = l
  · subst h
    simp [IntOp.cmpi]
  · have hne : BitVec.ofNat 32 k.val ≠ BitVec.ofNat 32 l.val := by
      intro e
      have := congrArg BitVec.toNat e
      simp only [BitVec.toNat_ofNat] at this
      exact h (Fin.ext (by omega))
    have hb : (BitVec.ofNat 32 k.val != BitVec.ofNat 32 l.val) = true := bne_iff_ne.mpr hne
    simp [IntOp.cmpi, h, hb]

/-! ## The second term, the two zero words, and the final quotient -/

/-- The one entry of the second term the kernel stores: the weight times the sum over `(k, l)` of the product of
the target table and the mask (summed along the rows first, then down the column of row sums). -/
theorem pay6_apply (q m : Vec Ideal S64x64 .f32) :
    k0_pay6 (F := Ideal) q m (ix2 (0 : Fin 1) (0 : Fin 1))
      = weight * ∑ k : Fin 64, ∑ l : Fin 64, q (ix2 k l) * m (ix2 k l) := by
  unfold k0_pay6
  simp only [shapeCast_self, mulf_apply, broadcast_apply, shapeCast_a_1a_apply,
    sum2_axis0_apply _ reduces_S64x1_S1, shapeCast_a_a1_apply, sum2_axis1_apply _ reduces_S64x64_S64]
  rfl

/-- The accumulator the kernel stores at the grid's first point is the real zero. -/
theorem pay7_apply : k0_pay7 (F := Ideal) (ix2 (0 : Fin 1) (0 : Fin 1)) = 0 := by
  unfold k0_pay7
  simp only [shapeCast_self, broadcast_apply]
  exact Ideal.ofBits_zero_f32

/-- The value a point's running sum starts from is the real zero. -/
theorem pay8_apply : k0_pay8 (F := Ideal) (ix2 (0 : Fin 1) (0 : Fin 1)) = 0 := by
  unfold k0_pay8
  simp only [broadcast_apply]
  exact Ideal.ofBits_zero_f32

/-- The result the kernel stores at the grid's last point: the difference of the two accumulated terms over the
normaliser. -/
theorem pay2_apply (a b : Vec Ideal S1x1 .f32) :
    k0_pay2 (F := Ideal) a b (ix2 (0 : Fin 1) (0 : Fin 1))
      = Ideal.div (a (ix2 (0 : Fin 1) (0 : Fin 1)) - b (ix2 (0 : Fin 1) (0 : Fin 1))) norm := rfl

/-! ## A block of the first term

For a slab `p` of 16 rows of the prediction table and slabs `q`, `m` of 16 rows of the target table and of the mask,
the block's sum is the masked softplus of `p a j - q b l` summed over the slab's `(a, j)` and `(b, l)`. -/

/-- The sum of one block: over the 16 × 128 entries of the prediction slab and the 16 × 64 entries of the target
slab. -/
def blockSum (p : Fin 16 → Fin 128 → EReal) (q m : Fin 16 → Fin 64 → EReal) : EReal :=
  ∑ a : Fin 16, ∑ j : Fin 128, ∑ b : Fin 16, ∑ l : Fin 64, term (p a j) (q b l) (m b l)

/-- No extended real differs from itself: the comparison "ordered and not equal" of a value with itself is the
zero bit. -/
theorem cmp_one_self (y : EReal) : Ideal.cmp .one y y = 0#1 := by
  simp [Ideal.cmp]

/-- Row `a` of the column of row sums a block body computes. The prediction slab is laid along the first two axes
of a `[16, 128, 16, 64]` array and the target slab and the mask along the last two; the softplus is taken entry by
entry — of its two branches the one for "the argument differs from itself" is never taken —, multiplied by the mask,
and summed along the last axis, then the third, then the second. -/
theorem pay9_row (v6 : Vec Ideal S16x128 .f32) (q m : Vec Ideal S16x64 .f32) (a : Fin 16) (u : Fin 1) :
    k0_pay9 (F := Ideal) v6 q m (ix2 a u)
      = ∑ j : Fin 128, ∑ b : Fin 16, ∑ l : Fin 64, term (v6 (ix2 a j)) (q (ix2 b l)) (m (ix2 b l)) := by
  unfold k0_pay9
  simp only [shapeCast_a_a1_apply, sum2_axis1_apply _ reduces_S16x128_S16,
    sum3_axis2_apply _ reduces_S16x128x16_S16x128, sum4_axis3_apply _ reduces_S16x128x16x64_S16x128x16,
    mulf_apply, addf_apply, subf_apply, maximumf_apply, select_apply, cmpf_apply, Ideal.cmpf_def, cmp_one_self,
    select_zero, absf_apply, exp_apply, log1p_apply, broadcast_apply, broadcastTo_ab11_abcd_apply,
    broadcastTo_11cd_abcd_apply, shapeCast_ab_ab11_apply, shapeCast_ab_11ab_apply, Ideal.ofBits_def,
    Ideal.ofBits_zero_f32]
  rfl

/-- A block body's column of row sums, summed over its rows, is the block's sum. -/
theorem pay9_apply (v6 : Vec Ideal S16x128 .f32) (v11 v13 : Vec Ideal S16x64 .f32) :
    ∑ a : Fin 16, k0_pay9 (F := Ideal) v6 v11 v13 (ix2 a (0 : Fin 1))
      = blockSum (fun a j => v6 (ix2 a j)) (fun b l => v11 (ix2 b l)) (fun b l => v13 (ix2 b l)) :=
  Finset.sum_congr rfl fun a _ => pay9_row v6 v11 v13 a 0

/-- A column of 16 entries summed down its rows and cast to `[1, 1]`: the sum of the entries. -/
theorem colTotal (c : FVec Ideal S16x1 .f32) (hφ : FKind.Formats .f32)
    (hacc : (0x00000000#32 : BitVec FTy.f32.bits) = 0x00000000#32) :
    shapeCast S1x1 (multiReduction .add [0] S1 c 0x00000000#32 reduces_S16x1_S1 hφ hacc) shapeCasts_S1_S1x1
        (ix2 (0 : Fin 1) (0 : Fin 1))
      = ∑ a : Fin 16, c (ix2 a (0 : Fin 1)) := by
  rw [shapeCast_a_1a_apply, sum2_axis0_apply]

/-- The running sum after the second block of a point: the value the point started from, plus the first block's
column summed, plus the second block's sum. -/
theorem pay10_apply (v6 : Vec Ideal S16x128 .f32) (v7 : FVec Ideal S1x1 .f32) (v41 : FVec Ideal S16x1 .f32)
    (v48 v50 : Vec Ideal S16x64 .f32) :
    k0_pay10 (F := Ideal) v6 v7 v41 v48 v50 (ix2 (0 : Fin 1) (0 : Fin 1))
      = (v7 (ix2 (0 : Fin 1) (0 : Fin 1)) + ∑ a : Fin 16, v41 (ix2 a (0 : Fin 1)))
        + blockSum (fun a j => v6 (ix2 a j)) (fun b l => v48 (ix2 b l)) (fun b l => v50 (ix2 b l)) := by
  show (v7 (ix2 (0 : Fin 1) (0 : Fin 1))
        + shapeCast S1x1 (multiReduction .add [0] S1 v41 0x00000000#32 reduces_S16x1_S1 _ _) shapeCasts_S1_S1x1
            (ix2 (0 : Fin 1) (0 : Fin 1)))
      + shapeCast S1x1 (multiReduction .add [0] S1 (k0_pay9 v6 v48 v50) 0x00000000#32 reduces_S16x1_S1 _ _)
          shapeCasts_S1_S1x1 (ix2 (0 : Fin 1) (0 : Fin 1)) = _
  rw [colTotal, colTotal, pay9_apply]

/-- The running sum after the third block: the sum so far plus the third block's sum. -/
theorem pay11_apply (v6 : Vec Ideal S16x128 .f32) (v81 : FVec Ideal S1x1 .f32) (v85 v87 : Vec Ideal S16x64 .f32) :
    k0_pay11 (F := Ideal) v6 v81 v85 v87 (ix2 (0 : Fin 1) (0 : Fin 1))
      = v81 (ix2 (0 : Fin 1) (0 : Fin 1))
        + blockSum (fun a j => v6 (ix2 a j)) (fun b l => v85 (ix2 b l)) (fun b l => v87 (ix2 b l)) := by
  show v81 (ix2 (0 : Fin 1) (0 : Fin 1))
      + shapeCast S1x1 (multiReduction .add [0] S1 (k0_pay9 v6 v85 v87) 0x00000000#32 reduces_S16x1_S1 _ _)
          shapeCasts_S1_S1x1 (ix2 (0 : Fin 1) (0 : Fin 1)) = _
  rw [colTotal, pay9_apply]

/-- The accumulator the kernel stores at the end of a point: what it held, plus the point's running sum after the
fourth block. The fourth block's scaled difference and its positive part reach this value as two vectors computed
before it; they are the same expressions the other three blocks compute in place. -/
theorem pay1_apply (v6 : Vec Ideal S16x128 .f32) (v118 : FVec Ideal S1x1 .f32) (v122 v124 : Vec Ideal S16x64 .f32)
    (v156 : Vec Ideal S1x1 .f32) :
    k0_pay1 (F := Ideal) v118 v124 (k0_pay12 v6 v122) (Scalar.ofBits .f32 0x00000000#32) (k0_pay13 v6 v122) v156
        (ix2 (0 : Fin 1) (0 : Fin 1))
      = v156 (ix2 (0 : Fin 1) (0 : Fin 1))
        + (v118 (ix2 (0 : Fin 1) (0 : Fin 1))
          + blockSum (fun a j => v6 (ix2 a j)) (fun b l => v122 (ix2 b l)) (fun b l => v124 (ix2 b l))) := by
  unfold k0_pay1
  simp only [shapeCast_self]
  show v156 (ix2 (0 : Fin 1) (0 : Fin 1))
      + (v118 (ix2 (0 : Fin 1) (0 : Fin 1))
        + shapeCast S1x1 (multiReduction .add [0] S1 (k0_pay9 v6 v122 v124) 0x00000000#32 reduces_S16x1_S1 _ _)
            shapeCasts_S1_S1x1 (ix2 (0 : Fin 1) (0 : Fin 1))) = _
  rw [colTotal, pay9_apply]

end Cert.KernelIdeal.Pay

end
-- ==== Proof.Loss.lean ====
/-
  The idealized kernel's result is the loss.

  Read at its one element, the running total after the last grid point is the sum of the eight slabs' masked
  softplus sums, each slab its four strips added from zero: the tiled sum, which is the whole sum over
  `(i, j, k, l)`. The tables under it are the two distance tables and the off-diagonal mask, the second term their
  weighted masked sum, and the last point's normalised difference is the loss.
-/
import proofs.«105743_j90795608637707_2_alg».proof.Proof.KernelRun
import proofs.«105743_j90795608637707_2_alg».proof.Proof.Blocks
import proofs.«105743_j90795608637707_2_alg».proof.Proof.Payloads
import proofs.«105743_j90795608637707_2_alg».proof.Proof.Regroup
import proofs.«105743_j90795608637707_2_alg».proof.Proof.Spec

set_option maxRecDepth 16384

noncomputable section

open scoped BigOperators
open Idealize.ShloMosaic Idealize.ShloMosaic.TcCoe Idealize.SL.Sem Idealize.ShloMosaic.ValueIdx

namespace Cert.KernelIdeal.Loss

open Cert.KernelIdeal Cert.KernelIdeal.Gen Cert.KernelIdeal.Found Cert.KernelIdeal.Chain Cert.KernelIdeal.Whole
open Cert.KernelIdeal.Blocks Cert.KernelIdeal.Pay Cert.Regroup Cert.Spec

variable (m : (ℓ : Loc nD τ sig) → Buf (Elt Ideal) ℓ)

/-- The summand at `(i, j, k, l)` over given tables. -/
def summandOf (P : Vec Ideal S128x128 .f32) (Q M : Vec Ideal S64x64 .f32) :
    Fin 128 → Fin 128 → Fin 64 → Fin 64 → EReal :=
  fun i j k l => term (P (ix2 i j)) (Q (ix2 k l)) (M (ix2 k l))

/-- A point's slab against strip `r` is tile `(t, r)` of the summand. -/
theorem block_tile (P : Vec Ideal S128x128 .f32) (Q M : Vec Ideal S64x64 .f32) (t : Fin cfg0.N) (r : Fin 4)
    (o : ℕ) (ho : o + 16 ≤ 64) (hr : o = 16 * r.val) :
    blockSum (fun a j => slab P (grid0.coords t) (ix2 a j)) (fun b l => strip Q o ho (ix2 b l))
        (fun b l => strip M o ho (ix2 b l))
      = tile (summandOf P Q M) (slabOf t) r := by
  unfold blockSum tile summandOf
  simp only [slab_apply, strip_apply _ r o ho hr]

/-- One point's update, at the one element: what the accumulator held plus the point's slab sum. -/
theorem accStep_apply (P : Vec Ideal S128x128 .f32) (Q M : Vec Ideal S64x64 .f32) (t : Fin cfg0.N)
    (acc : Vec Ideal S1x1 .f32) :
    accStep P Q M (grid0.coords t) acc (ix2 0 0) = acc (ix2 0 0) + slabSum (summandOf P Q M) (slabOf t) := by
  unfold accStep
  rw [pay1_apply, pay11_apply, pay10_apply, pay9_apply, pay8_apply]
  rw [block_tile P Q M t 0 0 _ rfl, block_tile P Q M t 1 16 _ rfl, block_tile P Q M t 2 32 _ rfl,
    block_tile P Q M t 3 48 _ rfl]
  rfl

/-- The prediction table the first point computes is the specification's. -/
theorem tabP_apply (c : Dev nD) (i j : Fin 128) :
    tabP m c (ix2 i j) = predTable (m ((c : Thread nD τ).loc main_arg0)) i j := by
  unfold tabP
  refine (pay3_apply _ i j).trans ?_
  unfold predTable
  rw [iblk_pred]

/-- The target table the first point computes is the specification's: on the leading 64 rows. -/
theorem tabQ_apply (c : Dev nD) (k l : Fin 64) :
    tabQ m c (ix2 k l) = trueTable (m ((c : Thread nD τ).loc main_arg1)) k l := by
  unfold tabQ
  refine (pay4_apply _ k l).trans ?_
  unfold trueTable
  exact congrArg (fun y => dist y k l)
    (funext fun k' => funext fun c' => iblk_true m c ⟨0, pos0⟩ k' c')

/-- The summand over the kernel's tables is the specification's. -/
theorem summand_eq (c : Dev nD) (i j : Fin 128) (k l : Fin 64) :
    summandOf (tabP m c) (tabQ m c) (k0_pay5 (F := Ideal)) i j k l
      = term (predTable (m ((c : Thread nD τ).loc main_arg0)) i j) (trueTable (m ((c : Thread nD τ).loc main_arg1)) k l)
          (offdiag k l) := by
  unfold summandOf
  rw [tabP_apply, tabQ_apply, pay5_apply]

/-- A step's term, for a step number that may run past the grid (then zero). -/
def stepTerm (f : Fin 128 → Fin 128 → Fin 64 → Fin 64 → EReal) (n : ℕ) : EReal :=
  if h : n < 8 then slabSum f ⟨n, h⟩ else 0

/-- The running total after point `n`, at the one element: the slab sums so far. -/
theorem total_apply (c : Dev nD) : ∀ (n : ℕ) (h : n < cfg0.N),
    total m c n h (ix2 0 0) = ∑ t ∈ Finset.range (n + 1), stepTerm (summandOf (tabP m c) (tabQ m c) (k0_pay5 (F := Ideal))) t
  | 0, h => by
    rw [total, accStep_apply, pay7_apply, zero_add, Finset.sum_range_one]
    unfold stepTerm
    rw [dif_pos (by decide)]
    rfl
  | n + 1, h => by
    have h8 : n + 1 < 8 := lt_of_lt_of_eq h N_0
    rw [total, accStep_apply, total_apply c n, Finset.sum_range_succ _ (n + 1)]
    congr 1
    unfold stepTerm
    rw [dif_pos h8]
    rfl

/-- After the last point the running total is the specification's first term. -/
theorem total_last (c : Dev nD) :
    total m c 7 lt7 (ix2 0 0)
      = first (predTable (m ((c : Thread nD τ).loc main_arg0))) (trueTable (m ((c : Thread nD τ).loc main_arg1))) offdiag := by
  rw [total_apply, Finset.sum_range]
  have e : ∀ t : Fin 8, stepTerm (summandOf (tabP m c) (tabQ m c) (k0_pay5 (F := Ideal))) t.val
      = slabSum (summandOf (tabP m c) (tabQ m c) (k0_pay5 (F := Ideal))) t := fun t => by
    unfold stepTerm; rw [dif_pos t.isLt]
  simp only [e]
  rw [sum_slabs]
  unfold first
  simp only [summand_eq]

/-- The second term is the specification's. -/
theorem second_apply (c : Dev nD) :
    Chain.second m c (ix2 0 0) = Spec.second (trueTable (m ((c : Thread nD τ).loc main_arg1))) offdiag := by
  unfold Chain.second
  rw [pay6_apply]
  unfold Spec.second
  simp only [tabQ_apply, pay5_apply]

/-- THE VALUE: the result buffer holds the loss of the two argument arrays. -/
theorem result_eq (c : Dev nD) :
    result m c = fun _ => loss (m ((c : Thread nD τ).loc main_arg0)) (m ((c : Thread nD τ).loc main_arg1)) := by
  funext j
  have hpos : (S1x1.rowMajor (ix2 (0 : Fin 1) (0 : Fin 1))).val = (S1.rowMajor j).val := by
    have n1 : S1x1.numel = 1 := by decide
    have n2 : S1.numel = 1 := by decide
    have h1 : (S1x1.rowMajor (ix2 (0 : Fin 1) (0 : Fin 1))).val < S1x1.numel := (S1x1.rowMajor _).isLt
    have h2 : (S1.rowMajor j).val < S1.numel := (S1.rowMajor j).isLt
    omega
  refine (shapeCast_apply (s := S1x1) (t := S1) (block m c) shapeCasts_S1x1_S1 j (ix2 0 0) hpos).trans ?_
  show k0_pay2 (total m c 7 lt7) (Chain.second m c) (ix2 0 0) = _
  rw [pay2_apply, total_last, second_apply]
  rfl

end Cert.KernelIdeal.Loss

end
-- ==== Proof.RefValue.lean ====
/-
  The reference program computes the loss of the specification.

  Reading the reference one operation at a time at a coordinate index gives, in order:
  the two tables of shifted pairwise row distances (all 128 rows of the first array; the leading 64 rows of the
  second, through the slice of its 128 × 128 table); the off-diagonal indicator of a 64 × 64 grid; at each
  `(i, j, k, l)` the stable softplus of the scaled difference of the two tables, the guard on it never firing over
  the extended reals; the two total sums, re-indexed from one sum over a product index set to nested sums over
  the coordinates; and the quotient of their weighted difference by the normaliser, carried unchanged from a
  scalar to a vector of length one.
-/
import proofs.«105743_j90795608637707_2_alg».proof.Proof.Gen.ReferenceIdeal.Read
import proofs.«105743_j90795608637707_2_alg».proof.Proof.Spec
import proofs.«105743_j90795608637707_2_alg».proof.Proof.LibCoordinateLayout
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Read Idealize.ShloMosaic Idealize.ShloMosaic.ValueIdx Cert.LibCoordinateLayout

/-- An argument array: a real-valued table with 128 rows of length 64. -/
abbrev Arr : Type := (⟨S128x64, .f32⟩ : BufTy).Contents (Elt Ideal)

/-! ## The two distance tables

Entry `(i, j)` of the first table is the square root of the sum over the 64 columns `c` of
`(x j c - x i c + ε)²`: the summand reads the array at row `j` (the copy broadcast along the first
axis) minus row `i` (the copy broadcast along the second). The sum starts from the zero word, which is `0`. -/

theorem pred_table (x0 : Arr) (i j : Fin 128) :
    val_main_v9 (F := Ideal) x0 (ix2 i j) = Spec.dist (Spec.rows (n := 128) x0) i j := by
  rw [val_main_v9_apply, val_main_v8_apply, val_main_cst_0_apply]
  unfold Spec.dist
  show Ideal.sqrt (Ideal.ofBits .f32 0x00000000#32 + _) = Ideal.sqrt _
  rw [Ideal.ofBits_zero_f32, zero_add]
  refine congrArg Ideal.sqrt (Finset.sum_congr rfl fun c _ => ?_)
  rw [val_main_v7_apply, val_main_v6_apply, val_main_v4_apply, val_main_v5_apply, val_main_cst_apply,
    val_main_v2_apply, val_main_v3_apply, val_main_v0_apply, val_main_v1_apply]
  have e1 : idx_main_v0 (idx_main_v2 (idx_main_v8 (ix2 i j) c)) = ix2 j c :=
    funext fun a => Fin.ext (by match a with | ⟨0, _⟩ => rfl | ⟨1, _⟩ => rfl)
  have e2 : idx_main_v1 (idx_main_v3 (idx_main_v8 (ix2 i j) c)) = ix2 i c :=
    funext fun a => Fin.ext (by match a with | ⟨0, _⟩ => rfl | ⟨1, _⟩ => rfl)
  rw [e1, e2]
  rfl

/-- The second table is the same construction on the second array, kept only for rows and columns below 64:
    entry `(k, l)` of the slice is entry `(k, l)` of the full table, whose rows are the array's leading 64 rows. -/
theorem true_table (x1 : Arr) (k l : Fin 64) :
    val_main_v20 (F := Ideal) x1 (ix2 k l) = Spec.dist (Spec.lead x1) k l := by
  rw [val_main_v20_apply, val_main_v19_apply, val_main_v18_apply, val_main_cst_2_apply]
  unfold Spec.dist
  show Ideal.sqrt (Ideal.ofBits .f32 0x00000000#32 + _) = Ideal.sqrt _
  rw [Ideal.ofBits_zero_f32, zero_add]
  refine congrArg Ideal.sqrt (Finset.sum_congr rfl fun c _ => ?_)
  rw [val_main_v17_apply, val_main_v16_apply, val_main_v14_apply, val_main_v15_apply, val_main_cst_1_apply,
    val_main_v12_apply, val_main_v13_apply, val_main_v10_apply, val_main_v11_apply]
  have e1 : idx_main_v10 (idx_main_v12 (idx_main_v18 (idx_main_v20 (ix2 k l)) c))
      = ix2 (Fin.castLE (by decide : 64 ≤ 128) l) c :=
    funext fun a => Fin.ext (by match a with | ⟨0, _⟩ => rfl | ⟨1, _⟩ => rfl)
  have e2 : idx_main_v11 (idx_main_v13 (idx_main_v18 (idx_main_v20 (ix2 k l)) c))
      = ix2 (Fin.castLE (by decide : 64 ≤ 128) k) c :=
    funext fun a => Fin.ext (by match a with | ⟨0, _⟩ => rfl | ⟨1, _⟩ => rfl)
  rw [e1, e2]
  rfl

/-! ## The mask

Entry `(k, l)` compares the row number `k` (plus the zero word) with the column number `l` as 32-bit words, negates
the one-bit answer and reads it as an unsigned integer. Numbers below 64 are their own 32-bit words, so the words
agree exactly when `k = l`: the entry is `0` on the diagonal and `1` off it. -/

theorem word_ne {k l : Fin 64} (h : k ≠ l) : BitVec.ofNat 32 k.val ≠ BitVec.ofNat 32 l.val := by
  intro e
  have e' := congrArg BitVec.toNat e
  simp only [BitVec.toNat_ofNat] at e'
  have hk := k.isLt
  have hl := l.isLt
  exact h (Fin.ext (by omega))

theorem mask (k l : Fin 64) :
    FloatOps.uitofp (F := Ideal) .f32 (val_main_v26 (F := Ideal) (ix2 k l)) = Spec.offdiag k l := by
  rw [val_main_v26_apply, val_main_v25_apply, val_main_v24_apply, val_main_v21_apply, val_main_v22_apply,
    val_main_v23_apply, val_main_c_apply]
  show (((~~~(BitVec.ofBool (BitVec.ofNat 32 k.val + 0#32 == BitVec.ofNat 32 l.val))).toNat : ℝ) : EReal) = _
  unfold Spec.offdiag
  rw [BitVec.add_zero]
  by_cases h : k = l
  · subst h
    rw [beq_self_eq_true, if_pos rfl]
    show (((0 : ℕ) : ℝ) : EReal) = 0
    rw [Nat.cast_zero, EReal.coe_zero]
  · rw [beq_eq_false_iff_ne.mpr (word_ne h), if_neg h]
    show (((1 : ℕ) : ℝ) : EReal) = 1
    rw [Nat.cast_one, EReal.coe_one]

/-! ## The summand of the first term, pointwise

At `(i, j, k, l)` the scaled difference is `1 · (P i j − Q k l)`: the first table broadcast along the last two axes,
the second along the first two. -/

theorem scaled_diff (x0 x1 : Arr) (i j : Fin 128) (k l : Fin 64) :
    val_main_v33 (F := Ideal) x0 x1 (ix4 i j k l)
      = Spec.unit * (val_main_v9 (F := Ideal) x0 (ix2 i j) - val_main_v20 (F := Ideal) x1 (ix2 k l)) := by
  rw [val_main_v33_apply, val_main_v32_apply, val_main_cst_3_apply, val_main_v31_apply, val_main_v29_apply,
    val_main_v30_apply, val_main_v27_apply, val_main_v28_apply]
  have e1 : idx_main_v27 (idx_main_v29 (ix4 i j k l)) = ix2 i j :=
    funext fun a => Fin.ext (by match a with | ⟨0, _⟩ => rfl | ⟨1, _⟩ => rfl)
  have e2 : idx_main_v28 (idx_main_v30 (ix4 i j k l)) = ix2 k l :=
    funext fun a => Fin.ext (by match a with | ⟨0, _⟩ => rfl | ⟨1, _⟩ => rfl)
  rw [e1, e2]
  rfl

/-- On the extended reals nothing differs from itself, so the test "`d ≠ d`" answers `0`. -/
theorem une_self (d : Ideal .f32) : FloatOps.cmpf (F := Ideal) .une d d = 0#1 := by
  show BitVec.ofBool (decide (d ≠ d)) = 0#1
  rw [decide_eq_false (fun h => h rfl)]
  rfl

/-- Negation written as subtraction from zero: the two spellings of the stable softplus agree. -/
theorem softplus_form (z : EReal) :
    max 0 z + Ideal.log1p (Ideal.exp (-(max (0 - z) (-(0 - z))))) = Spec.softplus z := by
  unfold Spec.softplus
  rw [zero_sub (max (0 - z) (-(0 - z)))]

/-- The program guards the softplus by the test `0 − z ≠ 0 − z`, which never holds here, so the guarded value is
    the softplus itself: `max 0 z + log(1 + exp(−|0 − z|))` with `|a| = max a (−a)`. -/
theorem softplus_at (x0 x1 : Arr) (i j : Fin 128) (k l : Fin 64) :
    val_main_v46 (F := Ideal) x0 x1 (ix4 i j k l)
      = Spec.softplus (Spec.unit * (val_main_v9 (F := Ideal) x0 (ix2 i j) - val_main_v20 (F := Ideal) x1 (ix2 k l))) := by
  have h0 : ∀ a : S_.Idx, val_main_cst_4 (F := Ideal) a = 0 := fun a => by
    rw [val_main_cst_4_apply]; exact Ideal.ofBits_zero_f32
  rw [val_main_v46_apply, val_main_v38_apply, une_self, select_zero,
    val_main_v45_apply, val_main_v35_apply, val_main_v44_apply, val_main_v43_apply, val_main_v42_apply,
    val_main_v41_apply, val_main_v37_apply, val_main_v34_apply, val_main_v36_apply, h0,
    scaled_diff]
  exact softplus_form _

/-! ## The two total sums -/

/-- The mask broadcast to rank 4 reads the `(k, l)` entry of the rank-2 mask. -/
theorem mask4 (i j : Fin 128) (k l : Fin 64) :
    val_main_v49 (F := Ideal) (ix4 i j k l) = Spec.offdiag k l := by
  rw [val_main_v49_apply, val_main_v48_apply, val_main_v47_apply]
  have e : idx_main_v47 (idx_main_v49 (ix4 i j k l)) = ix2 k l :=
    funext fun a => Fin.ext (by match a with | ⟨0, _⟩ => rfl | ⟨1, _⟩ => rfl)
  rw [e]
  exact mask k l

/-- One summand of the first total: the softplus of the scaled difference of the two tables, times the mask. -/
theorem summand (x0 x1 : Arr) (i j : Fin 128) (k l : Fin 64) :
    val_main_v50 (F := Ideal) x0 x1 (ix4 i j k l)
      = Spec.term (Spec.predTable x0 i j) (Spec.trueTable x1 k l) (Spec.offdiag k l) := by
  rw [val_main_v50_apply, softplus_at, mask4, pred_table, true_table]
  rfl

/-- The first total: the zero word plus the sum over every rank-4 index, as the fourfold sum of the summands. -/
theorem first_total (x0 x1 : Arr) (a : S_.Idx) :
    val_main_v51 (F := Ideal) x0 x1 a
      = Spec.first (Spec.predTable x0) (Spec.trueTable x1) Spec.offdiag := by
  rw [val_main_v51_apply, val_main_cst_5_apply]
  show Ideal.ofBits .f32 0x00000000#32 + _ = _
  rw [Ideal.ofBits_zero_f32, zero_add, sum_idx4]
  unfold Spec.first
  exact Finset.sum_congr rfl fun i _ => Finset.sum_congr rfl fun j _ =>
    Finset.sum_congr rfl fun k _ => Finset.sum_congr rfl fun l _ => summand x0 x1 i j k l

/-- The second total: the weight times the sum over the 64 × 64 table of the masked distances. -/
theorem second_total (x1 : Arr) (a : S_.Idx) :
    val_main_v55 (F := Ideal) x1 a = Spec.second (Spec.trueTable x1) Spec.offdiag := by
  rw [val_main_v55_apply, val_main_cst_7_apply, val_main_v54_apply, val_main_cst_6_apply]
  show Spec.weight * (Ideal.ofBits .f32 0x00000000#32 + _) = _
  rw [Ideal.ofBits_zero_f32, zero_add, sum_idx2]
  unfold Spec.second
  refine congrArg (Spec.weight * ·) (Finset.sum_congr rfl fun k _ => Finset.sum_congr rfl fun l _ => ?_)
  rw [val_main_v53_apply, val_main_v52_apply, mask, true_table]
  rfl

/-! ## The result

The difference of the two totals divided by the normaliser, a scalar; the last operation only renames the scalar's
index set to the one-element vector's, and both index sets have a single element. -/

theorem scalar_value (x0 x1 : Arr) (a : S_.Idx) :
    val_main_v57 (F := Ideal) x0 x1 a = Spec.loss x0 x1 := by
  rw [val_main_v57_apply, val_main_v56_apply, first_total, second_total, val_main_cst_8_apply]
  rfl

/-- Both shapes have one element, so their row-major positions are both `0`. -/
theorem one_position (j : S1.Idx) : (S_.rowMajor ix0).val = (S1.rowMajor j).val := by
  have n1 : S_.numel = 1 := by decide
  have n2 : S1.numel = 1 := by decide
  have h1 : (S_.rowMajor ix0).val < S_.numel := (S_.rowMajor ix0).isLt
  have h2 : (S1.rowMajor j).val < S1.numel := (S1.rowMajor j).isLt
  omega

theorem ref_eq (x0 x1 : (⟨Cert.ReferenceIdeal.S128x64, .f32⟩ : BufTy).Contents (Elt Ideal)) :
    Cert.ReferenceIdeal.Read.val_main_v58 (F := Ideal) x0 x1 = fun _ => Cert.Spec.loss x0 x1 := by
  funext j
  unfold val_main_v58
  rw [shapeCast_apply (val_main_v57 (F := Ideal) x0 x1) _ j ix0 (one_position j)]
  exact scalar_value x0 x1 ix0

end Cert.RefValue

end
-- ==== Proof.lean ====
/-
  The pairwise-distance softplus loss: a tiled kernel against its one-line reference, over the extended reals.

  Both programs compute, from predictions and targets `y_pred, y_true : [128, 64]`,

      ( ∑_{i,j,k,l} softplus(P i j − Q k l) · M k l  −  16384 · ∑_{k,l} Q k l · M k l ) / 508032,

  `P` the 128×128 table of shifted pairwise distances of the prediction rows, `Q` the 64×64 table of those of the first
  64 target rows, `M` the off-diagonal indicator (Proof/Spec.lean). The reference forms the four-index array whole
  and sums it once. The kernel fills `P`, `Q`, `M` and the second term at its first grid point, and at each of its eight
  points adds to a one-element accumulator the masked softplus of its own 16 rows of `P` against the four 16-row
  strips of `Q`, strip after strip from zero; its last point subtracts, divides and stores.

  At the ideal instance every operation is the exact one, the two programs' `is-NaN` tests both read as `x ≠ x` and
  select the same branch, the host's negation is the kernel's subtraction from zero, and the two ways of building the
  mask give the same zeros and ones; what remains is that the tiled sum is the whole sum, which needs only that
  addition of extended reals is commutative and associative — no finiteness, so the precondition is never opened.

  The kernel's run is read off the generated frame: what each control case leaves in the carried buffers
  (Proof/Found.lean), the induction over the grid points (Proof/Chain.lean), the one write-back and the host
  reshape after it (Proof/KernelRun.lean), the buffers at coordinates (Proof/Blocks.lean, Proof/Payloads.lean), the
  regrouping of the sum (Proof/Regroup.lean) and the value (Proof/Loss.lean). The reference's run is the generated one,
  read an operation at a time (Proof/RefValue.lean). The ideal pass rewrote nothing, so `preserves` is `True`.
-/
import proofs.«105743_j90795608637707_2_alg».proof.Defs
import proofs.«105743_j90795608637707_2_alg».proof.Proof.Gen.Kernel
import proofs.«105743_j90795608637707_2_alg».proof.Proof.Gen.Kernel.Skeleton
import proofs.«105743_j90795608637707_2_alg».proof.Proof.Gen.Kernel.Launch
import proofs.«105743_j90795608637707_2_alg».proof.Proof.Gen.Kernel.Points
import proofs.«105743_j90795608637707_2_alg».proof.Proof.Gen.Kernel.Frame
import proofs.«105743_j90795608637707_2_alg».proof.Proof.Gen.KernelIdeal
import proofs.«105743_j90795608637707_2_alg».proof.Proof.Gen.KernelIdeal.Skeleton
import proofs.«105743_j90795608637707_2_alg».proof.Proof.Gen.KernelIdeal.Launch
import proofs.«105743_j90795608637707_2_alg».proof.Proof.Gen.KernelIdeal.Points
import proofs.«105743_j90795608637707_2_alg».proof.Proof.Gen.KernelIdeal.Frame
import proofs.«105743_j90795608637707_2_alg».proof.Proof.Gen.ReferenceIdeal
import proofs.«105743_j90795608637707_2_alg».proof.Proof.Gen.Pre_finite_inputs
import proofs.«105743_j90795608637707_2_alg».proof.Proof.Gen.ReferenceIdeal.Run
import proofs.«105743_j90795608637707_2_alg».proof.Proof.Gen.ReferenceIdeal.Read
import proofs.«105743_j90795608637707_2_alg».proof.Proof.Loss
import proofs.«105743_j90795608637707_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the kernel's result and the reference's are both the loss of the same two arrays. -/
theorem algebraic : Cert.algebraic_KernelIdeal_ReferenceIdeal := by
  intro m ρ m' ρ' _ hagree
  refine ⟨fun c => Cert.KernelIdeal.Whole.result m c, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.RefValue.ref_eq, (hagree c).1, (hagree c).2]
  exact (Cert.KernelIdeal.Loss.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
